-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x128 : Shape := ⟨3, ![16384, 1, 128]⟩
abbrev S16384x10x128 : Shape := ⟨3, ![16384, 10, 128]⟩
abbrev S16384x64x128 : Shape := ⟨3, ![16384, 64, 128]⟩
abbrev S_ : Shape := ⟨0, ![]⟩

class Facts : Prop where
  bcast_S_S16384x1x128 : S_.BroadcastsInDim S16384x1x128 (![] : Fin 0 → Fin S16384x1x128.rank)
  reducesTo_S16384x1x128_S_d0_1_2 : S16384x1x128.ReducesTo [0, 1, 2] S_
  h_S_ : 0 < S_.numel
  bcast_S_S16384x10x128 : S_.BroadcastsInDim S16384x10x128 (![] : Fin 0 → Fin S16384x10x128.rank)
  reducesTo_S16384x10x128_S_d0_1_2 : S16384x10x128.ReducesTo [0, 1, 2] S_
  bcast_S_S16384x64x128 : S_.BroadcastsInDim S16384x64x128 (![] : Fin 0 → Fin S16384x64x128.rank)
  reducesTo_S16384x64x128_S_d0_1_2 : S16384x64x128.ReducesTo [0, 1, 2] S_

variable [Facts]

def fn_part1 {F : FTy → Type} [FloatOps F] (main_v13 : IVec S_ 1) (main_v16 : IVec S16384x1x128 1) : IVec S_ 1 :=
  let main_c_5 : IVec S_ 1 := constantI S_ 1 1#1
  let main_v17 : IVec S_ 1 := (fun x v => Host.reduce IntOp.andi x v reducesTo_S16384x1x128_S_d0_1_2 h_S_) main_v16 main_c_5
  let main_v18 : IVec S_ 1 := andi main_v13 main_v17
  main_v18

def fn {F : FTy → Type} [FloatOps F] (main_arg0 : FVec F S16384x1x128 .f32) (main_arg1 : FVec F S16384x10x128 .f32) (main_arg2 : FVec F S16384x64x128 .f32) (main_arg3 : FVec F S16384x1x128 .f32) : IVec S_ 1 :=
  let main_v0 : FVec F S16384x1x128 .f32 := Host.absf main_arg0
  let main_cst : FVec F S_ .f32 := constant S_ .f32 0x7F800000#32
  let main_v1 : FVec F S16384x1x128 .f32 := broadcastInDim S16384x1x128 ![] bcast_S_S16384x1x128 main_cst
  let main_v2 : IVec S16384x1x128 1 := cmpf .olt main_v0 main_v1
  let main_c : IVec S_ 1 := constantI S_ 1 1#1
  let main_v3 : IVec S_ 1 := (fun x v => Host.reduce IntOp.andi x v reducesTo_S16384x1x128_S_d0_1_2 h_S_) main_v2 main_c
  let main_v4 : FVec F S16384x10x128 .f32 := Host.absf main_arg1
  let main_cst_0 : FVec F S_ .f32 := constant S_ .f32 0x7F800000#32
  let main_v5 : FVec F S16384x10x128 .f32 := broadcastInDim S16384x10x128 ![] bcast_S_S16384x10x128 main_cst_0
  let main_v6 : IVec S16384x10x128 1 := cmpf .olt main_v4 main_v5
  let main_c_1 : IVec S_ 1 := constantI S_ 1 1#1
  let main_v7 : IVec S_ 1 := (fun x v => Host.reduce IntOp.andi x v reducesTo_S16384x10x128_S_d0_1_2 h_S_) main_v6 main_c_1
  let main_v8 : IVec S_ 1 := andi main_v3 main_v7
  let main_v9 : FVec F S16384x64x128 .f32 := Host.absf main_arg2
  let main_cst_2 : FVec F S_ .f32 := constant S_ .f32 0x7F800000#32
  let main_v10 : FVec F S16384x64x128 .f32 := broadcastInDim S16384x64x128 ![] bcast_S_S16384x64x128 main_cst_2
  let main_v11 : IVec S16384x64x128 1 := cmpf .olt main_v9 main_v10
  let main_c_3 : IVec S_ 1 := constantI S_ 1 1#1
  let main_v12 : IVec S_ 1 := (fun x v => Host.reduce IntOp.andi x v reducesTo_S16384x64x128_S_d0_1_2 h_S_) main_v11 main_c_3
  let main_v13 : IVec S_ 1 := andi main_v8 main_v12
  let main_v14 : FVec F S16384x1x128 .f32 := Host.absf main_arg3
  let main_cst_4 : FVec F S_ .f32 := constant S_ .f32 0x7F800000#32
  let main_v15 : FVec F S16384x1x128 .f32 := broadcastInDim S16384x1x128 ![] bcast_S_S16384x1x128 main_cst_4
  let main_v16 : IVec S16384x1x128 1 := cmpf .olt main_v14 main_v15
  fn_part1 (F := F) main_v13 main_v16
-- ==== Kernel.lean ====
abbrev S16384x1x128 : Shape := ⟨3, ![16384, 1, 128]⟩
abbrev S16384x10x128 : Shape := ⟨3, ![16384, 10, 128]⟩
abbrev S16384x64x128 : Shape := ⟨3, ![16384, 64, 128]⟩
abbrev S16384x128 : Shape := ⟨2, ![16384, 128]⟩
abbrev S16384x75 : Shape := ⟨2, ![16384, 75]⟩
abbrev S256x128 : Shape := ⟨2, ![256, 128]⟩
abbrev S256x10x128 : Shape := ⟨3, ![256, 10, 128]⟩
abbrev S256x64x128 : Shape := ⟨3, ![256, 64, 128]⟩
abbrev S256x75 : Shape := ⟨2, ![256, 75]⟩
abbrev S256x1x128 : Shape := ⟨3, ![256, 1, 128]⟩
abbrev S256x10 : Shape := ⟨2, ![256, 10]⟩
abbrev S256x64 : Shape := ⟨2, ![256, 64]⟩
abbrev S256 : Shape := ⟨1, ![256]⟩
abbrev S256x1 : Shape := ⟨2, ![256, 1]⟩
abbrev S16384x75x1 : Shape := ⟨3, ![16384, 75, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1x128, .f32⟩
  | .hbm, ⟨1, _⟩ => ⟨S16384x10x128, .f32⟩
  | .hbm, ⟨2, _⟩ => ⟨S16384x64x128, .f32⟩
  | .hbm, ⟨3, _⟩ => ⟨S16384x1x128, .f32⟩
  | .hbm, ⟨4, _⟩ => ⟨S16384x128, .f32⟩
  | .hbm, ⟨5, _⟩ => ⟨S16384x128, .f32⟩
  | .hbm, ⟨6, _⟩ => ⟨S16384x75, .f32⟩
  | .hbm, ⟨7, _⟩ => ⟨S16384x75x1, .f32⟩
  | .local _ .vmem, ⟨0, _⟩ => ⟨S256x128, .f32⟩
  | .local _ .vmem, ⟨1, _⟩ => ⟨S256x128, .f32⟩
  | .local _ .vmem, ⟨2, _⟩ => ⟨S256x10x128, .f32⟩
  | .local _ .vmem, ⟨3, _⟩ => ⟨S256x10x128, .f32⟩
  | .local _ .vmem, ⟨4, _⟩ => ⟨S256x64x128, .f32⟩
  | .local _ .vmem, ⟨5, _⟩ => ⟨S256x64x128, .f32⟩
  | .local _ .vmem, ⟨6, _⟩ => ⟨S256x128, .f32⟩
  | .local _ .vmem, ⟨7, _⟩ => ⟨S256x128, .f32⟩
  | .local _ .vmem, ⟨8, _⟩ => ⟨S256x75, .f32⟩
  | .local _ .vmem, ⟨9, _⟩ => ⟨S256x75, .f32⟩
  | _, _ => ⟨S16384x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x75 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384x1x128_S16384x128 : S16384x1x128.ShapeCasts S16384x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x1x128 : S256x128.ShapeCasts S256x1x128
  inb_S256x10x128_S256x10x128_0_0_0 : ∀ a, (![0, 0, 0] : Fin 3 → Nat) a + S256x10x128.size a ≤ S256x10x128.size a
  h_S256x10x128 : 0 < S256x10x128.numel
  inb_S256x64x128_S256x64x128_0_0_0 : ∀ a, (![0, 0, 0] : Fin 3 → Nat) a + S256x64x128.size a ≤ S256x64x128.size a
  h_S256x64x128 : 0 < S256x64x128.numel
  broadcasts_S256x1x128_S256x10x128 : S256x1x128.Broadcasts S256x10x128
  reduces_S256x10x128_S256x10 : S256x10x128.Reduces [2] S256x10
  inb_S256x75_S256x10_0_0 : ∀ a, (![0, 0] : Fin 2 → Nat) a + S256x10.size a ≤ S256x75.size a
  h_S256x10 : 0 < S256x10.numel
  broadcasts_S256x1x128_S256x64x128 : S256x1x128.Broadcasts S256x64x128
  reduces_S256x64x128_S256x64 : S256x64x128.Reduces [2] S256x64
  inb_S256x75_S256x64_0_10 : ∀ a, (![0, 10] : Fin 2 → Nat) a + S256x64.size a ≤ S256x75.size a
  h_S256x64 : 0 < S256x64.numel
  reduces_S256x128_S256 : S256x128.Reduces [1] S256
  shapeCasts_S256_S256x1 : S256.ShapeCasts S256x1
  inb_S256x75_S256x1_0_74 : ∀ a, (![0, 74] : Fin 2 → Nat) a + S256x1.size a ≤ S256x75.size a
  h_S256x1 : 0 < S256x1.numel
  bcast_S16384x75_S16384x75x1_0_1 : S16384x75.BroadcastsInDim S16384x75x1 (![0, 1] : Fin 2 → Fin S16384x75x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10x128.size a ≤ S16384x10x128.size a
  hwx0_1 : ∀ i : grid0.Coords, EltTy.bits .f32 = 32 ∨ (Rect.block (s := S16384x10x128) S256x10x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64x128.size a ≤ S16384x64x128.size a
  hwx0_2 : ∀ i : grid0.Coords, EltTy.bits .f32 = 32 ∨ (Rect.block (s := S16384x64x128) S256x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S16384x128.size a
  hwx0_3 : ∀ i : grid0.Coords, EltTy.bits .f32 = 32 ∨ (Rect.block (s := S16384x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x75.size a ≤ S16384x75.size a
  hwx0_4 : ∀ i : grid0.Coords, EltTy.bits .f32 = 32 ∨ (Rect.block (s := S16384x75) S256x75.size (cc0_transform_4 i) (hinb0_4 i)).WholeWords (EltTy.packing .f32)

variable [Facts₀]

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x10x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x75.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1x128 : Shape := ⟨3, ![16384, 1, 128]⟩
abbrev S16384x10x128 : Shape := ⟨3, ![16384, 10, 128]⟩
abbrev S16384x64x128 : Shape := ⟨3, ![16384, 64, 128]⟩
abbrev S16384x10x1 : Shape := ⟨3, ![16384, 10, 1]⟩
abbrev S16384x64x1 : Shape := ⟨3, ![16384, 64, 1]⟩
abbrev S16384x1x1 : Shape := ⟨3, ![16384, 1, 1]⟩
abbrev S16384x75x1 : Shape := ⟨3, ![16384, 75, 1]⟩

abbrev nBuf : Space → Nat
  | .hbm => 9
  | .vmem => 0
  | .smem => 0
  | _ => 0

abbrev bufTy : (tb : Table) → Fin (tcTables nBuf tb) → BufTy
  | .hbm, ⟨0, _⟩ => ⟨S16384x1x128, .f32⟩
  | .hbm, ⟨1, _⟩ => ⟨S16384x10x128, .f32⟩
  | .hbm, ⟨2, _⟩ => ⟨S16384x64x128, .f32⟩
  | .hbm, ⟨3, _⟩ => ⟨S16384x1x128, .f32⟩
  | .hbm, ⟨4, _⟩ => ⟨S16384x10x1, .f32⟩
  | .hbm, ⟨5, _⟩ => ⟨S16384x64x1, .f32⟩
  | .hbm, ⟨6, _⟩ => ⟨S16384x64x1, .f32⟩
  | .hbm, ⟨7, _⟩ => ⟨S16384x1x1, .f32⟩
  | .hbm, ⟨8, _⟩ => ⟨S16384x75x1, .f32⟩
  | _, _ => ⟨S16384x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  concatenates_S16384x10x1_S16384x64x1_S16384x1x1_S16384x75x1_d1 : Shape.Concatenates [S16384x10x1, S16384x64x1, S16384x1x1] S16384x75x1 1
  dot_S16384x10x128_S16384x1x128_S16384x10x1_2_2_1_1_0_0_wf : DotDims.WF S16384x10x128 S16384x1x128 S16384x10x1 [2] [2] [1] [1] [0] [0]
  dot_S16384x64x128_S16384x1x128_S16384x64x1_2_2_1_1_0_0_wf : DotDims.WF S16384x64x128 S16384x1x128 S16384x64x1 [2] [2] [1] [1] [0] [0]
  dot_S16384x1x128_S16384x1x128_S16384x1x1_2_2_1_1_0_0_wf : DotDims.WF S16384x1x128 S16384x1x128 S16384x1x1 [2] [2] [1] [1] [0] [0]

variable [Facts₀]

def dot_S16384x10x128_S16384x1x128_S16384x10x1_2_2_1_1_0_0 : DotDims S16384x10x128 S16384x1x128 S16384x10x1 where
  lhsContracting := [2]
  rhsContracting := [2]
  lhsNonContracting := [1]
  rhsNonContracting := [1]
  lhsBatch := [0]
  rhsBatch := [0]
  wf := dot_S16384x10x128_S16384x1x128_S16384x10x1_2_2_1_1_0_0_wf
def dot_S16384x64x128_S16384x1x128_S16384x64x1_2_2_1_1_0_0 : DotDims S16384x64x128 S16384x1x128 S16384x64x1 where
  lhsContracting := [2]
  rhsContracting := [2]
  lhsNonContracting := [1]
  rhsNonContracting := [1]
  lhsBatch := [0]
  rhsBatch := [0]
  wf := dot_S16384x64x128_S16384x1x128_S16384x64x1_2_2_1_1_0_0_wf
def dot_S16384x1x128_S16384x1x128_S16384x1x1_2_2_1_1_0_0 : DotDims S16384x1x128 S16384x1x128 S16384x1x1 where
  lhsContracting := [2]
  rhsContracting := [2]
  lhsNonContracting := [1]
  rhsNonContracting := [1]
  lhsBatch := [0]
  rhsBatch := [0]
  wf := dot_S16384x1x128_S16384x1x128_S16384x1x1_2_2_1_1_0_0_wf

class Facts : Prop extends Facts₀ where

variable [Facts]
-- ==== Proof.Spec.lean ====
/-
  What both programs compute, one batch row at a time. A batch row has a centre vector, ten window
  words, sixty-four negative samples and a buyer vector, each of 128 lanes; its output row has 75
  entries, every one an inner product over the lanes with the centre vector:
    · entry j, j < 10:        the inner product of window word j with the centre vector;
    · entry j, 10 ≤ j < 74:   minus the inner product of negative sample j - 10 with the centre vector;
    · entry 74:               the inner product of the centre vector with the buyer vector.
  The sums are sums in the extended reals, over all 128 lanes at once: no order of summation is part of
  the statement, and the factors stand in the order written.
-/
import Idealize.ShloMosaic.PureOps.Ideal
import Idealize.ShloMosaic.Lib.ValueIdx

noncomputable section

namespace Cert.Spec

/-- The output row of one batch row, as a function of that row's four inputs. -/
def rowScore (ctr : Fin 128 → EReal) (win : Fin 10 → Fin 128 → EReal) (neg : Fin 64 → Fin 128 → EReal)
    (buy : Fin 128 → EReal) (j : Fin 75) : EReal :=
  if h : j.val < 10 then ∑ k : Fin 128, win ⟨j.val, h⟩ k * ctr k
  else if h' : j.val < 74 then -(∑ k : Fin 128, neg ⟨j.val - 10, by omega⟩ k * ctr k)
  else ∑ k : Fin 128, ctr k * buy k

/-- The output row depends on its inputs entry by entry only. -/
theorem rowScore_congr {ctr ctr' : Fin 128 → EReal} {win win' : Fin 10 → Fin 128 → EReal} {neg neg' : Fin 64 → Fin 128 → EReal}
    {buy buy' : Fin 128 → EReal} (hc : ∀ k, ctr k = ctr' k) (hw : ∀ w k, win w k = win' w k)
    (hn : ∀ n k, neg n k = neg' n k) (hb : ∀ k, buy k = buy' k) (j : Fin 75) :
    rowScore ctr win neg buy j = rowScore ctr' win' neg' buy' j := by
  obtain rfl : ctr = ctr' := funext hc
  obtain rfl : win = win' := funext fun w => funext (hw w)
  obtain rfl : neg = neg' := funext fun n => funext (hn n)
  obtain rfl : buy = buy' := funext hb
  rfl

/-- The first ten entries are the window words' inner products. -/
theorem rowScore_window (ctr : Fin 128 → EReal) (win : Fin 10 → Fin 128 → EReal) (neg : Fin 64 → Fin 128 → EReal)
    (buy : Fin 128 → EReal) (j : Fin 10) (J : Fin 75) (hJ : J.val = j.val) :
    rowScore ctr win neg buy J = ∑ k : Fin 128, win j k * ctr k := by
  have hj := j.isLt
  unfold rowScore
  rw [dif_pos (by omega : J.val < 10)]
  have e : (⟨J.val, by omega⟩ : Fin 10) = j := Fin.ext hJ
  rw [e]

/-- The next sixty-four are the negative samples' inner products, negated. -/
theorem rowScore_negative (ctr : Fin 128 → EReal) (win : Fin 10 → Fin 128 → EReal) (neg : Fin 64 → Fin 128 → EReal)
    (buy : Fin 128 → EReal) (j : Fin 64) (J : Fin 75) (hJ : J.val = j.val + 10) :
    rowScore ctr win neg buy J = -(∑ k : Fin 128, neg j k * ctr k) := by
  have hj := j.isLt
  unfold rowScore
  rw [dif_neg (by omega : ¬J.val < 10), dif_pos (by omega : J.val < 74)]
  have e : (⟨J.val - 10, by omega⟩ : Fin 64) = j := Fin.ext (by simp only; omega)
  rw [e]

/-- The last is the buyer's inner product. -/
theorem rowScore_buyer (ctr : Fin 128 → EReal) (win : Fin 10 → Fin 128 → EReal) (neg : Fin 64 → Fin 128 → EReal)
    (buy : Fin 128 → EReal) (J : Fin 75) (hJ : J.val = 74) :
    rowScore ctr win neg buy J = ∑ k : Fin 128, ctr k * buy k := by
  unfold rowScore
  rw [dif_neg (by omega : ¬J.val < 10), dif_neg (by omega : ¬J.val < 74)]

open Idealize.ShloMosaic Idealize.ShloMosaic.ValueIdx in
/-- THE RESULT both programs return, [16384,75,1], of the four arguments — centre and buyer [16384,1,128],
    windows [16384,10,128], negatives [16384,64,128]: entry (R, J, 0) is entry J of the output row of batch row R. -/
def scores (ctr : (⟨3, ![16384, 1, 128]⟩ : Shape).Idx → EReal) (win : (⟨3, ![16384, 10, 128]⟩ : Shape).Idx → EReal)
    (neg : (⟨3, ![16384, 64, 128]⟩ : Shape).Idx → EReal) (buy : (⟨3, ![16384, 1, 128]⟩ : Shape).Idx → EReal) :
    (⟨3, ![16384, 75, 1]⟩ : Shape).Idx → EReal := fun i =>
  rowScore (fun k => ctr (ix3 (⟨(i 0).val, (i 0).isLt⟩ : Fin 16384) (0 : Fin 1) k))
    (fun w k => win (ix3 (⟨(i 0).val, (i 0).isLt⟩ : Fin 16384) w k))
    (fun n k => neg (ix3 (⟨(i 0).val, (i 0).isLt⟩ : Fin 16384) n k))
    (fun k => buy (ix3 (⟨(i 0).val, (i 0).isLt⟩ : Fin 16384) (0 : Fin 1) k)) (⟨(i 1).val, (i 1).isLt⟩ : Fin 75)

end Cert.Spec

end
-- ==== Proof.Body.lean ====
/-
  The kernel body's three stored values, read entry by entry at the extended reals. For a block of 256
  batch rows the body holds the centre block x0 [256,128], the window block x1 [256,10,128], the
  negative block x2 [256,64,128] and the buyer block x3 [256,128], and stores
    · into columns 0..9:   the lane sums of x1 · (x0 repeated along the ten words),
    · into columns 10..73: zero minus the lane sums of x2 · (x0 repeated along the sixty-four samples),
    · into column 74:      the lane sums of x0 · x3, as a one-column matrix.
  Entry (r, j) of each is the inner product over the lanes of row r of the two blocks involved; the
  subtraction from zero is the negation.
-/
import proofs.«180657_j25031069401581_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The centre block viewed with a unit middle axis holds row r, lane k at (r, 0, k). -/
theorem centre3_apply (x0 : Vec Ideal S256x128 .f32) (r : Fin 256) (k : Fin 128) :
    k0_pay2 x0 (ix3 r (0 : Fin 1) k) = x0 (ix2 r k) := by
  unfold k0_pay2 k0_pay1
  rw [shapeCast_self]
  refine shapeCast_apply _ _ _ _ ?_
  rw [Shape.rowMajor_val_two, Shape.rowMajor_val_three]
  show r.val * 128 + k.val = (r.val * 1 + 0) * 128 + k.val
  omega

/-- Repeated along the ten words it still holds row r, lane k at (r, j, k). -/
theorem centre_words_apply (x0 : Vec Ideal S256x128 .f32) (r : Fin 256) (j : Fin 10) (k : Fin 128) :
    broadcastTo S256x10x128 (k0_pay2 x0) broadcasts_S256x1x128_S256x10x128 (ix3 r j k) = x0 (ix2 r k) := by
  refine (broadcastTo_apply _ _ _ (ix3 r (0 : Fin 1) k) ?_).trans (centre3_apply x0 r k)
  intro a
  match a with
  | ⟨0, _⟩ => rfl
  | ⟨1, _⟩ => rfl
  | ⟨2, _⟩ => rfl

/-- And along the sixty-four samples. -/
theorem centre_samples_apply (x0 : Vec Ideal S256x128 .f32) (r : Fin 256) (j : Fin 64) (k : Fin 128) :
    broadcastTo S256x64x128 (k0_pay2 x0) broadcasts_S256x1x128_S256x64x128 (ix3 r j k) = x0 (ix2 r k) := by
  refine (broadcastTo_apply _ _ _ (ix3 r (0 : Fin 1) k) ?_).trans (centre3_apply x0 r k)
  intro a
  match a with
  | ⟨0, _⟩ => rfl
  | ⟨1, _⟩ => rfl
  | ⟨2, _⟩ => rfl

/-- Columns 0..9: entry (r, j) is the inner product of window word j of row r with the centre row r. -/
theorem window_store_apply (x0 : Vec Ideal S256x128 .f32) (x1 : Vec Ideal S256x10x128 .f32) (r : Fin 256) (j : Fin 10) :
    k0_pay3 x0 x1 (ix2 r j) = ∑ k : Fin 128, x1 (ix3 r j k) * x0 (ix2 r k) := by
  unfold k0_pay3
  refine (Ideal.multiReduction_add_single _ 0x00000000#32 reduces_S256x10x128_S256x10 (.inl rfl) rfl (ix2 r j)).trans ?_
  refine Finset.sum_congr rfl fun k _ => ?_
  have hl : reduces_S256x10x128_S256x10.lift (ix2 r j) k = ix3 r j k := funext fun a => Fin.ext (by
    match a with
    | ⟨0, _⟩ => rfl
    | ⟨1, _⟩ => rfl
    | ⟨2, _⟩ => rfl)
  rw [hl]
  exact congrArg (x1 (ix3 r j k) * ·) (centre_words_apply x0 r j k)

/-- Columns 10..73: entry (r, j) is minus the inner product of negative sample j of row r with the centre row r. -/
theorem negative_store_apply (x0 : Vec Ideal S256x128 .f32) (x2 : Vec Ideal S256x64x128 .f32) (r : Fin 256) (j : Fin 64) :
    k0_pay4 x0 x2 (ix2 r j) = -(∑ k : Fin 128, x2 (ix3 r j k) * x0 (ix2 r k)) := by
  unfold k0_pay4
  show Ideal.ofBits .f32 0x00000000#32 - _ = _
  rw [Ideal.ofBits_zero_f32, zero_sub]
  refine congrArg (fun z : EReal => -z) ?_
  refine (Ideal.multiReduction_add_single _ 0x00000000#32 reduces_S256x64x128_S256x64 (.inl rfl) rfl (ix2 r j)).trans ?_
  refine Finset.sum_congr rfl fun k _ => ?_
  have hl : reduces_S256x64x128_S256x64.lift (ix2 r j) k = ix3 r j k := funext fun a => Fin.ext (by
    match a with
    | ⟨0, _⟩ => rfl
    | ⟨1, _⟩ => rfl
    | ⟨2, _⟩ => rfl)
  rw [hl]
  exact congrArg (x2 (ix3 r j k) * ·) (centre_samples_apply x0 r j k)

/-- Column 74: entry (r, 0) of the one-column matrix is the inner product of the centre row r with the buyer row r. -/
theorem buyer_store_apply (x0 x3 : Vec Ideal S256x128 .f32) (r : Fin 256) :
    k0_pay5 x0 x3 (ix2 r (0 : Fin 1)) = ∑ k : Fin 128, x0 (ix2 r k) * x3 (ix2 r k) := by
  unfold k0_pay5 k0_pay1
  rw [shapeCast_self, shapeCast_self]
  refine (shapeCast_apply _ _ _ (ix1 r) ?_).trans ?_
  · rw [Shape.rowMajor_val_one, Shape.rowMajor_val_two]
    show r.val = r.val * 1 + 0
    omega
  refine (Ideal.multiReduction_add_single _ 0x00000000#32 reduces_S256x128_S256 (.inl rfl) rfl (ix1 r)).trans ?_
  refine Finset.sum_congr rfl fun k _ => ?_
  have hl : reduces_S256x128_S256.lift (ix1 r) k = ix2 r k := funext fun a => Fin.ext (by
    match a with
    | ⟨0, _⟩ => rfl
    | ⟨1, _⟩ => rfl)
  rw [hl]
  rfl

end Cert.KernelIdeal.Body

end
-- ==== Proof.Block.lean ====
/-
  What the kernel body leaves in its output block [256,75], entry by entry. The body makes three stores
  into the block, through the rectangles of columns 0..9, 10..73 and 74; the three rectangles are disjoint and
  together fill the block, so entry (r, j) holds the value of the one store whose columns contain j, and by
  the entrywise reading of the three stored values it is entry j of the output row of batch row r.
-/
import proofs.«180657_j25031069401581_2_alg».proof.Proof.Gen.KernelIdeal.Frame
import proofs.«180657_j25031069401581_2_alg».proof.Proof.Body
import proofs.«180657_j25031069401581_2_alg».proof.Proof.Spec

noncomputable section

namespace Cert.KernelIdeal.Block

open Cert.KernelIdeal Cert.KernelIdeal.Gen Idealize.ShloMosaic Idealize.ShloMosaic.TcCoe Idealize.SL.Sem
open Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl

/-- The store into column 74, -/
abbrev buyerStore (x0 x3 : Vec Ideal S256x128 .f32) : View.Piece (Elt Ideal) S256x75 .f32 :=
  ⟨Rect.unit (s := S256x75) ![0, 74] S256x1.size inb_S256x75_S256x1_0_74, k0_pay5 x0 x3⟩
/-- into columns 10..73, -/
abbrev negativeStore (x0 : Vec Ideal S256x128 .f32) (x2 : Vec Ideal S256x64x128 .f32) : View.Piece (Elt Ideal) S256x75 .f32 :=
  ⟨Rect.unit (s := S256x75) ![0, 10] S256x64.size inb_S256x75_S256x64_0_10, k0_pay4 x0 x2⟩
/-- and into columns 0..9. -/
abbrev windowStore (x0 : Vec Ideal S256x128 .f32) (x1 : Vec Ideal S256x10x128 .f32) : View.Piece (Elt Ideal) S256x75 .f32 :=
  ⟨Rect.unit (s := S256x75) ![0, 0] S256x10.size inb_S256x75_S256x10_0_0, k0_pay3 x0 x1⟩

/-- The three stores, last first, over the loaded blocks. -/
abbrev stores (x0 : Vec Ideal S256x128 .f32) (x1 : Vec Ideal S256x10x128 .f32) (x2 : Vec Ideal S256x64x128 .f32)
    (x3 : Vec Ideal S256x128 .f32) : List (View.Piece (Elt Ideal) S256x75 .f32) :=
  [buyerStore x0 x3, negativeStore x0 x2, windowStore x0 x1]

/-- The block the body leaves is those stores laid over one another: every load reads a whole staging buffer. -/
theorem left_eq_stores (c : Dev nD) (i : grid0.Coords)
    (a1 : Memref sig .tc .vmem S256x128 .f32) (h1 : a1.IsWhole)
    (a2 : Memref sig .tc .vmem S256x10x128 .f32) (h2 : a2.IsWhole)
    (a3 : Memref sig .tc .vmem S256x64x128 .f32) (h3 : a3.IsWhole)
    (a4 : Memref sig .tc .vmem S256x128 .f32) (h4 : a4.IsWhole)
    (a5 : Memref sig .tc .vmem S256x75 .f32) (h5 : a5.IsWhole)
    (x0 : Vec Ideal S256x128 .f32) (x1 : Vec Ideal S256x10x128 .f32) (x2 : Vec Ideal S256x64x128 .f32) (x3 : Vec Ideal S256x128 .f32) :
    out0_A_4 (F := Ideal) c i a1 h1 a2 h2 a3 h3 a4 h4 a5 h5 x0 x1 x2 x3 = View.canon (stores x0 x1 x2 x3) := by
  unfold out0_A_4
  rw [View.read_writes_junk_eq_canon]
  unfold kernelRun0_A
  dsimp only
  simp only [View.readAt_eq_ld, h1.read_unread, h2.read_unread, h3.read_unread, h4.read_unread,
    View.ld_unit_zero (S := S256x128) zero2, View.ld_unit_zero (S := S256x10x128) zero3,
    View.ld_unit_zero (S := S256x64x128) zero3]

/-- Column j of the block lies in the last store's rectangle exactly when j = 74, -/
theorem mem_last (r : Fin 256) (j : Fin 75) :
    ix2 r j ∈ (Rect.unit (s := S256x75) ![0, 74] S256x1.size inb_S256x75_S256x1_0_74).set ↔ j.val = 74 := by
  rw [Rect.mem_set_unit]
  constructor
  · intro h
    have h1 : (74 : Nat) ≤ j.val ∧ j.val < 74 + 1 := h 1
    omega
  · intro h a
    match a with
    | ⟨0, _⟩ => show (0 : Nat) ≤ r.val ∧ r.val < 0 + 256; omega
    | ⟨1, _⟩ => show (74 : Nat) ≤ j.val ∧ j.val < 74 + 1; omega

/-- and in the middle store's exactly when 10 ≤ j < 74. -/
theorem mem_middle (r : Fin 256) (j : Fin 75) :
    ix2 r j ∈ (Rect.unit (s := S256x75) ![0, 10] S256x64.size inb_S256x75_S256x64_0_10).set ↔ 10 ≤ j.val ∧ j.val < 74 := by
  rw [Rect.mem_set_unit]
  constructor
  · intro h
    have h1 : (10 : Nat) ≤ j.val ∧ j.val < 10 + 64 := h 1
    omega
  · intro h a
    match a with
    | ⟨0, _⟩ => show (0 : Nat) ≤ r.val ∧ r.val < 0 + 256; omega
    | ⟨1, _⟩ => show (10 : Nat) ≤ j.val ∧ j.val < 10 + 64; omega

/-- ENTRY (r, j) of the block the stores leave is entry j of the output row of the block's row r. -/
theorem stores_apply (x0 : Vec Ideal S256x128 .f32) (x1 : Vec Ideal S256x10x128 .f32) (x2 : Vec Ideal S256x64x128 .f32)
    (x3 : Vec Ideal S256x128 .f32) (r : Fin 256) (j : Fin 75) :
    View.canon (stores x0 x1 x2 x3) (ix2 r j)
      = Cert.Spec.rowScore (fun k => x0 (ix2 r k)) (fun w k => x1 (ix3 r w k)) (fun n k => x2 (ix3 r n k))
          (fun k => x3 (ix2 r k)) j := by
  have hj := j.isLt
  by_cases h74 : j.val = 74
  · -- the buyer column
    have e : ix2 r j = (buyerStore x0 x3).1.emb (ix2 r (0 : Fin 1)) :=
      funext fun a => Fin.ext (by
        match a with
        | ⟨0, _⟩ => show r.val = 0 + 1 * r.val; omega
        | ⟨1, _⟩ => show j.val = 74 + 1 * 0; omega)
    rw [Cert.Spec.rowScore_buyer _ _ _ _ j h74, e]
    refine (View.canon_cons_emb (buyerStore x0 x3).1 _ [negativeStore x0 x2, windowStore x0 x1] (ix2 r (0 : Fin 1))).trans ?_
    exact Body.buyer_store_apply x0 x3 r
  · have n74 : ix2 r j ∉ (buyerStore x0 x3).1.set := fun hm => h74 ((mem_last r j).mp hm)
    refine (View.canon_cons_of_not_mem (buyerStore x0 x3) [negativeStore x0 x2, windowStore x0 x1] n74).trans ?_
    by_cases h10 : j.val < 10
    · -- a window column
      have nmid : ix2 r j ∉ (negativeStore x0 x2).1.set := fun hm => by
        have := (mem_middle r j).mp hm
        omega
      refine (View.canon_cons_of_not_mem (negativeStore x0 x2) [windowStore x0 x1] nmid).trans ?_
      have e : ix2 r j = (windowStore x0 x1).1.emb (ix2 r (⟨j.val, h10⟩ : Fin 10)) :=
        funext fun a => Fin.ext (by
          match a with
          | ⟨0, _⟩ => show r.val = 0 + 1 * r.val; omega
          | ⟨1, _⟩ => show j.val = 0 + 1 * j.val; omega)
      rw [Cert.Spec.rowScore_window _ _ _ _ ⟨j.val, h10⟩ j rfl, e]
      refine (View.canon_cons_emb (windowStore x0 x1).1 _ [] (ix2 r (⟨j.val, h10⟩ : Fin 10))).trans ?_
      exact Body.window_store_apply x0 x1 r ⟨j.val, h10⟩
    · -- a negative-sample column
      have h64 : j.val - 10 < 64 := by omega
      have e : ix2 r j = (negativeStore x0 x2).1.emb (ix2 r (⟨j.val - 10, h64⟩ : Fin 64)) :=
        funext fun a => Fin.ext (by
          match a with
          | ⟨0, _⟩ => show r.val = 0 + 1 * r.val; omega
          | ⟨1, _⟩ => show j.val = 10 + 1 * (j.val - 10); omega)
      rw [Cert.Spec.rowScore_negative _ _ _ _ ⟨j.val - 10, h64⟩ j (by show j.val = j.val - 10 + 10; omega), e]
      refine (View.canon_cons_emb (negativeStore x0 x2).1 _ [windowStore x0 x1] (ix2 r (⟨j.val - 10, h64⟩ : Fin 64))).trans ?_
      exact Body.negative_store_apply x0 x2 r ⟨j.val - 10, h64⟩

end Cert.KernelIdeal.Block

end
-- ==== Proof.Rows.lean ====
/-
  From blocks to the whole array. The launch runs the body at 64 points; at point t every staged array
  is read through the block of its rows 256 t … 256 t + 255 (all of its other axes whole), and the output
  block is written back to the same rows of the output array [16384,75]. So row R = 256 t + r of the output
  array is the output row of batch row R of the four staged arrays, and since the 64 row blocks fill the
  array, the array ends holding exactly that table.
-/
import proofs.«180657_j25031069401581_2_alg».proof.Proof.Gen.KernelIdeal.Frame
import proofs.«180657_j25031069401581_2_alg».proof.Proof.Block
import proofs.«180657_j25031069401581_2_alg».proof.Proof.Spec
import Idealize.ShloMosaic.Lib.Pipeline.Value

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output table [16384,75] of a centre array C and a buyer array B, both [16384,128], a window array W
    [16384,10,128] and a negative array N [16384,64,128]: row R is the output row of their rows R. -/
def table (C : S16384x128.Idx → EReal) (W : S16384x10x128.Idx → EReal) (N : S16384x64x128.Idx → EReal)
    (B : S16384x128.Idx → EReal) : S16384x75.Idx → EReal := fun i =>
  Cert.Spec.rowScore (fun k => C (ix2 (⟨(i 0).val, (i 0).isLt⟩ : Fin 16384) k))
    (fun w k => W (ix3 (⟨(i 0).val, (i 0).isLt⟩ : Fin 16384) w k))
    (fun n k => N (ix3 (⟨(i 0).val, (i 0).isLt⟩ : Fin 16384) n k))
    (fun k => B (ix2 (⟨(i 0).val, (i 0).isLt⟩ : Fin 16384) k)) (⟨(i 1).val, (i 1).isLt⟩ : Fin 75)

/-- At point t every window is at row block t and at block 0 of its other axes. -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The centre block at point t: row r, lane k is row 256 t + r, lane k of the staged centre array. -/
theorem centre_block_apply (c : Dev nD) (t : Fin cfg0.N) (r : Fin 256) (k : Fin 128) (R : Fin 16384)
    (hR : R.val = 256 * t.val + r.val) :
    (iblk m c 0 t : Vec Ideal S256x128 .f32) (ix2 r k) = (V m c main_v0 : S16384x128.Idx → EReal) (ix2 R k) := by
  obtain ⟨e0, e1, -⟩ := block_index t
  unfold iblk
  rw [View.read_apply]
  show V m c main_v0 _ = V m c main_v0 _
  congr 1
  funext a
  apply Fin.ext
  match a with
  | ⟨0, _⟩ => show win0_0.index t 0 * 256 + 1 * r.val = R.val; rw [e0, hR]; omega
  | ⟨1, _⟩ => show win0_0.index t 1 * 128 + 1 * k.val = k.val; rw [e1]; omega

/-- The window block: row r, word w, lane k is row 256 t + r, word w, lane k of the window array. -/
theorem window_block_apply (c : Dev nD) (t : Fin cfg0.N) (r : Fin 256) (w : Fin 10) (k : Fin 128) (R : Fin 16384)
    (hR : R.val = 256 * t.val + r.val) :
    (iblk m c 1 t : Vec Ideal S256x10x128 .f32) (ix3 r w k) = (V m c main_arg1 : S16384x10x128.Idx → EReal) (ix3 R w k) := by
  obtain ⟨-, -, e0, e1, e2, -⟩ := block_index t
  unfold iblk
  rw [View.read_apply]
  show V m c main_arg1 _ = V m c main_arg1 _
  congr 1
  funext a
  apply Fin.ext
  match a with
  | ⟨0, _⟩ => show win0_1.index t 0 * 256 + 1 * r.val = R.val; rw [e0, hR]; omega
  | ⟨1, _⟩ => show win0_1.index t 1 * 10 + 1 * w.val = w.val; rw [e1]; omega
  | ⟨2, _⟩ => show win0_1.index t 2 * 128 + 1 * k.val = k.val; rw [e2]; omega

/-- The negative block: row r, sample n, lane k is row 256 t + r, sample n, lane k of the negative array. -/
theorem negative_block_apply (c : Dev nD) (t : Fin cfg0.N) (r : Fin 256) (n : Fin 64) (k : Fin 128) (R : Fin 16384)
    (hR : R.val = 256 * t.val + r.val) :
    (iblk m c 2 t : Vec Ideal S256x64x128 .f32) (ix3 r n k) = (V m c main_arg2 : S16384x64x128.Idx → EReal) (ix3 R n k) := by
  obtain ⟨-, -, -, -, -, e0, e1, e2, -⟩ := block_index t
  unfold iblk
  rw [View.read_apply]
  show V m c main_arg2 _ = V m c main_arg2 _
  congr 1
  funext a
  apply Fin.ext
  match a with
  | ⟨0, _⟩ => show win0_2.index t 0 * 256 + 1 * r.val = R.val; rw [e0, hR]; omega
  | ⟨1, _⟩ => show win0_2.index t 1 * 64 + 1 * n.val = n.val; rw [e1]; omega
  | ⟨2, _⟩ => show win0_2.index t 2 * 128 + 1 * k.val = k.val; rw [e2]; omega

/-- The buyer block: row r, lane k is row 256 t + r, lane k of the staged buyer array. -/
theorem buyer_block_apply (c : Dev nD) (t : Fin cfg0.N) (r : Fin 256) (k : Fin 128) (R : Fin 16384)
    (hR : R.val = 256 * t.val + r.val) :
    (iblk m c 3 t : Vec Ideal S256x128 .f32) (ix2 r k) = (V m c main_v1 : S16384x128.Idx → EReal) (ix2 R k) := by
  obtain ⟨-, -, -, -, -, -, -, -, e0, e1, -⟩ := block_index t
  unfold iblk
  rw [View.read_apply]
  show V m c main_v1 _ = V m c main_v1 _
  congr 1
  funext a
  apply Fin.ext
  match a with
  | ⟨0, _⟩ => show win0_3.index t 0 * 256 + 1 * r.val = R.val; rw [e0, hR]; omega
  | ⟨1, _⟩ => show win0_3.index t 1 * 128 + 1 * k.val = k.val; rw [e1]; omega

/-- WHAT POINT t WRITES BACK is its row block of the table of the staged arrays. -/
theorem flushed_eq (c : Dev nD) (t : Fin cfg0.N) :
    (dats m 0 c).flushed 4 t = ((cfg0.win 4).blk t).view.read (Elt Ideal)
      (table (V m c main_v0) (V m c main_arg1) (V m c main_arg2) (V m c main_v1)) := by
  show (cfg0.win 4).cut (grid0.coords t) ((dats m 0 c).after 4 t) = _
  rw [after0_4]
  unfold outsAt0
  refine (Block.left_eq_stores c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t)).trans ?_
  refine funext fun (y : S256x75.Idx) => ?_
  obtain ⟨r, j, rfl⟩ : ∃ (r : Fin 256) (j : Fin 75), y = ix2 r j := ⟨y 0, y 1, eq_ix2 y⟩
  refine (Block.stores_apply (iblk m c 0 t) (iblk m c 1 t) (iblk m c 2 t) (iblk m c 3 t) r j).trans ?_
  have hN : cfg0.N = 64 := N_0
  have ht := t.isLt
  have hr := r.isLt
  have hR : 256 * t.val + r.val < 16384 := by omega
  obtain ⟨-, -, -, -, -, -, -, -, -, -, e0, e1⟩ := block_index t
  have he : ((cfg0.win 4).blk t).view.emb (ix2 r j) = ix2 (⟨256 * t.val + r.val, hR⟩ : Fin 16384) j :=
    funext fun a => Fin.ext (by
      match a with
      | ⟨0, _⟩ => show win0_4.index t 0 * 256 + 1 * r.val = 256 * t.val + r.val; rw [e0]; omega
      | ⟨1, _⟩ => show win0_4.index t 1 * 75 + 1 * j.val = j.val; rw [e1]; omega)
  show _ = table (V m c main_v0) (V m c main_arg1) (V m c main_arg2) (V m c main_v1) (((cfg0.win 4).blk t).view.emb (ix2 r j))
  rw [he]
  exact Cert.Spec.rowScore_congr (fun k => centre_block_apply m c t r k ⟨256 * t.val + r.val, hR⟩ rfl)
    (fun w k => window_block_apply m c t r w k ⟨256 * t.val + r.val, hR⟩ rfl)
    (fun n k => negative_block_apply m c t r n k ⟨256 * t.val + r.val, hR⟩ rfl)
    (fun k => buyer_block_apply m c t r k ⟨256 * t.val + r.val, hR⟩ rfl) j

/-- An index of the output array is in point t's block iff each coordinate is in the block's range on its axis. -/
theorem mem_block (t : Fin cfg0.N) (i : S16384x75.Idx) :
    i ∈ ((cfg0.win 4).blk t).view.set ↔ ∀ a : Fin 2, win0_4.index t a * S256x75.size a ≤ (i a).val
      ∧ (i a).val < win0_4.index t a * S256x75.size a + S256x75.size a := by
  show i ∈ ((View.whole main_v2).slice (win0_4.rect t)).set ↔ _
  rw [View.set_slice_whole, Rect.mem_set_unit]
  exact Iff.rfl

/-- Every row of the output array lies in the block of the point its row number divided by 256 names. -/
theorem covered (i : S16384x75.Idx) :
    ∃ t : Fin cfg0.N, (cfg0.win 4).flush t = true ∧ i ∈ ((cfg0.win 4).blk t).view.set := by
  have hi0 : (i 0).val < 16384 := (i 0).isLt
  have hi1 : (i 1).val < 75 := (i 1).isLt
  have hN : cfg0.N = 64 := N_0
  have hq : (i 0).val / 256 < cfg0.N := by rw [hN]; omega
  refine ⟨⟨(i 0).val / 256, hq⟩, flush0_4 _, ?_⟩
  rw [mem_block]
  obtain ⟨-, -, -, -, -, -, -, -, -, -, e0, e1⟩ := block_index ⟨(i 0).val / 256, hq⟩
  intro a
  match a with
  | ⟨0, _⟩ =>
    show win0_4.index ⟨(i 0).val / 256, hq⟩ 0 * 256 ≤ (i 0).val ∧ (i 0).val < win0_4.index ⟨(i 0).val / 256, hq⟩ 0 * 256 + 256
    rw [e0]
    show (i 0).val / 256 * 256 ≤ (i 0).val ∧ (i 0).val < (i 0).val / 256 * 256 + 256
    omega
  | ⟨1, _⟩ =>
    show win0_4.index ⟨(i 0).val / 256, hq⟩ 1 * 75 ≤ (i 1).val ∧ (i 1).val < win0_4.index ⟨(i 0).val / 256, hq⟩ 1 * 75 + 75
    rw [e1]
    omega

/-- THE OUTPUT ARRAY after the launch is the table of the staged arrays. -/
theorem final (c : Dev nD) :
    (dats m 0 c).arrAt 4 cfg0.N = table (V m c main_v0) (V m c main_arg1) (V m c main_arg2) (V m c main_v1) :=
  (dats m 0 c).arrAt_eq_of_cover 4 _ (fun t _ => flushed_eq m c t) covered

end Cert.KernelIdeal.Rows

end
-- ==== Proof.Whole.lean ====
/-
  The idealized kernel's whole run. Around the launch the program does two things on the host: before it,
  the centre and buyer arguments [16384,1,128] are viewed as [16384,128] (same entries in the same row-major
  order, so row R, lane k is entry (R, 0, k)); after it, the output array [16384,75] is given a unit last
  axis (entry (R, J, 0) is entry (R, J)). Between them the launch fills the output array with the table of
  output rows of the staged arrays. So the result is the table of output rows of the arguments themselves.
-/
import proofs.«180657_j25031069401581_2_alg».proof.Proof.Gen.KernelIdeal.Frame
import proofs.«180657_j25031069401581_2_alg».proof.Proof.Rows
import proofs.«180657_j25031069401581_2_alg».proof.Proof.Spec
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The centre array the launch stages is the centre argument with its unit axis dropped, -/
theorem staged_centre (c : Dev nD) :
    (V m c main_v0 : S16384x128.Idx → EReal)
      = shapeCast S16384x128 (m ((c : Thread nD τ).loc main_arg0)) shapeCasts_S16384x1x128_S16384x128 := by
  show StableHlo.after hostOps0 (fun b => m (c, b)) (Proc.devRef .tc main_v0) = _
  after_results
  rfl

/-- and the buyer array the buyer argument likewise. -/
theorem staged_buyer (c : Dev nD) :
    (V m c main_v1 : S16384x128.Idx → EReal)
      = shapeCast S16384x128 (m ((c : Thread nD τ).loc main_arg3)) shapeCasts_S16384x1x128_S16384x128 := by
  show StableHlo.after hostOps0 (fun b => m (c, b)) (Proc.devRef .tc main_v1) = _
  after_results
  rfl

/-- Dropping the unit middle axis keeps row R, lane k where it was. -/
theorem drop_unit_apply (x : S16384x1x128.Idx → EReal) (R : Fin 16384) (k : Fin 128) :
    shapeCast S16384x128 x shapeCasts_S16384x1x128_S16384x128 (ix2 R k) = x (ix3 R (0 : Fin 1) k) := by
  refine shapeCast_apply _ _ _ _ ?_
  rw [Shape.rowMajor_val_three, Shape.rowMajor_val_two]
  show (R.val * 1 + 0) * 128 + k.val = R.val * 128 + k.val
  omega

/-- THE RESULT after the host's last line: the table of output rows of the arguments. -/
theorem result_eq (c : Dev nD) :
    (Pipeline.afterTail₀ cfgs (dats m) 0 (V0 m) [hostOps1] c main_v3 : S16384x75x1.Idx → EReal)
      = Cert.Spec.scores (m ((c : Thread nD τ).loc main_arg0)) (m ((c : Thread nD τ).loc main_arg1))
          (m ((c : Thread nD τ).loc main_arg2)) (m ((c : Thread nD τ).loc main_arg3)) := by
  unfold Pipeline.afterTail₀
  show StableHlo.after (hostOps1 (F := Ideal)) _ (Proc.devRef .tc main_v3) = _
  after_results
  have hA : (Pipeline.withArrays (cfgs 0).spec c (V0 m c) (fun w => (dats m 0 c).arrAt w (cfgs 0).N)
        (Proc.devRef .tc main_v2) : S16384x75.Idx → EReal)
      = Rows.table (V m c main_v0) (V m c main_arg1) (V m c main_arg2) (V m c main_v1) :=
    (Pipeline.withArrays_arr spec0 launch0.win.arr_inj c _ _ 4).trans (Rows.final m c)
  refine (congrArg (broadcastInDim S16384x75x1 ![0, 1] bcast_S16384x75_S16384x75x1_0_1) hA).trans ?_
  funext i
  obtain ⟨R, J, z, rfl⟩ : ∃ (R : Fin 16384) (J : Fin 75) (z : Fin 1), i = ix3 R J z := ⟨i 0, i 1, i 2, eq_ix3 i⟩
  refine (broadcastInDim_apply _ _ _ (ix3 R J z) (ix2 R J) ?_).trans ?_
  · intro a
    match a with
    | ⟨0, _⟩ => rfl
    | ⟨1, _⟩ => rfl
  show Cert.Spec.rowScore (fun k => (V m c main_v0 : S16384x128.Idx → EReal) (ix2 R k))
      (fun w k => (V m c main_arg1 : S16384x10x128.Idx → EReal) (ix3 R w k))
      (fun n k => (V m c main_arg2 : S16384x64x128.Idx → EReal) (ix3 R n k))
      (fun k => (V m c main_v1 : S16384x128.Idx → EReal) (ix2 R k)) J
    = Cert.Spec.rowScore (fun k => (m ((c : Thread nD τ).loc main_arg0) : S16384x1x128.Idx → EReal) (ix3 R (0 : Fin 1) k))
      (fun w k => (m ((c : Thread nD τ).loc main_arg1) : S16384x10x128.Idx → EReal) (ix3 R w k))
      (fun n k => (m ((c : Thread nD τ).loc main_arg2) : S16384x64x128.Idx → EReal) (ix3 R n k))
      (fun k => (m ((c : Thread nD τ).loc main_arg3) : S16384x1x128.Idx → EReal) (ix3 R (0 : Fin 1) k)) J
  refine Cert.Spec.rowScore_congr (fun k => ?_) (fun w k => ?_) (fun n k => ?_) (fun k => ?_) J
  · rw [staged_centre]; exact drop_unit_apply _ R k
  · exact congrFun (V_main_arg1 m c) (ix3 R w k)
  · exact congrFun (V_main_arg2 m c) (ix3 R n k)
  · rw [staged_buyer]; exact drop_unit_apply _ R k

/-- The run, read: the result at the table of output rows of the arguments, the arguments unchanged. -/
theorem run : θ_run defs (onTc (τ := τ) (main (F := Ideal))) ⟨m, fun _ => 0, ρ⟩ fun r => ∀ c : Dev nD,
      r.2.mem ((c.tc : Thread nD τ).loc main_v3)
        = Cert.Spec.scores (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.RefRows.lean ====
/-
  The reference's result, entry by entry. The reference forms three arrays with a unit last axis — the
  windows' inner products with the centre vectors [16384,10,1], the negatives' inner products negated
  [16384,64,1] and the centre-buyer inner products [16384,1,1] — and joins them along the middle axis. Entry
  (R, J, 0) of the joined array comes from the first piece when J < 10, from the second at J - 10 when
  10 ≤ J < 74, and from the third when J = 74; each piece's entry is a sum over the 128 lanes of products of
  the arguments' rows R. So the result is entry J of the output row of batch row R.
-/
import proofs.«180657_j25031069401581_2_alg».proof.Proof.Gen.ReferenceIdeal.Read
import proofs.«180657_j25031069401581_2_alg».proof.Proof.Spec
import Idealize.ShloMosaic.Lib.Pipeline.Value
import Idealize.ShloMosaic.Lib.ValueIdx

noncomputable section

namespace Cert.ReferenceIdeal.RefRows

open Cert.ReferenceIdeal Cert.ReferenceIdeal.Gen Cert.ReferenceIdeal.Read Idealize.ShloMosaic Idealize.ShloMosaic.ValueIdx

/-- Entry (R, w, 0) of the first piece. -/
theorem window_piece_apply (x0 : S16384x1x128.Idx → EReal) (x1 : S16384x10x128.Idx → EReal) (R : Fin 16384) (w : Fin 10) :
    val_main_v0 (F := Ideal) x0 x1 (ix3 R w (0 : Fin 1))
      = ∑ k : Fin 128, x1 (ix3 R w k) * x0 (ix3 R (0 : Fin 1) k) := by
  rw [val_main_v0_apply]
  refine Finset.sum_congr rfl fun k _ => ?_
  have el : lidx_main_v0 (ix3 R w (0 : Fin 1)) k = ix3 R w k := funext fun a => Fin.ext (by
    match a with
    | ⟨0, _⟩ => rfl
    | ⟨1, _⟩ => rfl
    | ⟨2, _⟩ => rfl)
  have er : ridx_main_v0 (ix3 R w (0 : Fin 1)) k = ix3 R (0 : Fin 1) k := funext fun a => Fin.ext (by
    match a with
    | ⟨0, _⟩ => rfl
    | ⟨1, _⟩ => rfl
    | ⟨2, _⟩ => rfl)
  rw [el, er]

/-- Entry (R, n, 0) of the second piece. -/
theorem negative_piece_apply (x0 : S16384x1x128.Idx → EReal) (x2 : S16384x64x128.Idx → EReal) (R : Fin 16384) (n : Fin 64) :
    val_main_v2 (F := Ideal) x0 x2 (ix3 R n (0 : Fin 1))
      = -(∑ k : Fin 128, x2 (ix3 R n k) * x0 (ix3 R (0 : Fin 1) k)) := by
  rw [val_main_v2_apply, val_main_v1_apply]
  show -(∑ k : Fin 128, _) = _
  refine congrArg (fun z : EReal => -z) ?_
  refine Finset.sum_congr rfl fun k _ => ?_
  have el : lidx_main_v1 (ix3 R n (0 : Fin 1)) k = ix3 R n k := funext fun a => Fin.ext (by
    match a with
    | ⟨0, _⟩ => rfl
    | ⟨1, _⟩ => rfl
    | ⟨2, _⟩ => rfl)
  have er : ridx_main_v1 (ix3 R n (0 : Fin 1)) k = ix3 R (0 : Fin 1) k := funext fun a => Fin.ext (by
    match a with
    | ⟨0, _⟩ => rfl
    | ⟨1, _⟩ => rfl
    | ⟨2, _⟩ => rfl)
  rw [el, er]

/-- Entry (R, 0, 0) of the third piece. -/
theorem buyer_piece_apply (x0 x3 : S16384x1x128.Idx → EReal) (R : Fin 16384) :
    val_main_v3 (F := Ideal) x0 x3 (ix3 R (0 : Fin 1) (0 : Fin 1))
      = ∑ k : Fin 128, x0 (ix3 R (0 : Fin 1) k) * x3 (ix3 R (0 : Fin 1) k) := by
  rw [val_main_v3_apply]
  refine Finset.sum_congr rfl fun k _ => ?_
  have el : lidx_main_v3 (ix3 R (0 : Fin 1) (0 : Fin 1)) k = ix3 R (0 : Fin 1) k := funext fun a => Fin.ext (by
    match a with
    | ⟨0, _⟩ => rfl
    | ⟨1, _⟩ => rfl
    | ⟨2, _⟩ => rfl)
  have er : ridx_main_v3 (ix3 R (0 : Fin 1) (0 : Fin 1)) k = ix3 R (0 : Fin 1) k := funext fun a => Fin.ext (by
    match a with
    | ⟨0, _⟩ => rfl
    | ⟨1, _⟩ => rfl
    | ⟨2, _⟩ => rfl)
  rw [el, er]

/-- The three pieces joined along the middle axis. -/
abbrev pieces (x0 : S16384x1x128.Idx → EReal) (x1 : S16384x10x128.Idx → EReal) (x2 : S16384x64x128.Idx → EReal)
    (x3 : S16384x1x128.Idx → EReal) : List ((s : Shape) × (s.Idx → EReal)) :=
  [⟨S16384x10x1, val_main_v0 (F := Ideal) x0 x1⟩, ⟨S16384x64x1, val_main_v2 (F := Ideal) x0 x2⟩,
   ⟨S16384x1x1, val_main_v3 (F := Ideal) x0 x3⟩]

/-- THE REFERENCE'S RESULT is the table of output rows. -/
theorem result_eq (x0 : S16384x1x128.Idx → EReal) (x1 : S16384x10x128.Idx → EReal) (x2 : S16384x64x128.Idx → EReal)
    (x3 : S16384x1x128.Idx → EReal) :
    val_main_v4 (F := Ideal) x0 x1 x2 x3 = Cert.Spec.scores x0 x1 x2 x3 := by
  funext i
  obtain ⟨R, J, z, rfl⟩ : ∃ (R : Fin 16384) (J : Fin 75) (z : Fin 1), i = ix3 R J z := ⟨i 0, i 1, i 2, eq_ix3 i⟩
  have hz : z.val = 0 := by have := z.isLt; omega
  have hJ := J.isLt
  show _ = Cert.Spec.rowScore (fun k => x0 (ix3 R (0 : Fin 1) k)) (fun w k => x1 (ix3 R w k))
    (fun n k => x2 (ix3 R n k)) (fun k => x3 (ix3 R (0 : Fin 1) k)) J
  unfold val_main_v4
  by_cases h10 : J.val < 10
  · -- the first piece
    rw [Cert.Spec.rowScore_window _ _ _ _ ⟨J.val, h10⟩ J rfl]
    refine (concatenate_apply_piece (t := S16384x75x1) (1 : Fin 3) (pieces x0 x1 x2 x3) concatenates_S16384x10x1_S16384x64x1_S16384x1x1_S16384x75x1_d1 (ix3 R J z) 0 (by show (0 : Nat) < 3; omega) S16384x10x1 (val_main_v0 (F := Ideal) x0 x1) rfl rfl
      0 rfl (ix3 R (⟨J.val, h10⟩ : Fin 10) (0 : Fin 1)) ?_ ?_).trans (window_piece_apply x0 x1 R ⟨J.val, h10⟩)
    · intro b hb
      match b with
      | ⟨0, _⟩ => rfl
      | ⟨1, _⟩ => exact absurd rfl hb
      | ⟨2, _⟩ => show (0 : Nat) = z.val; omega
    · show 0 + J.val = J.val; omega
  · by_cases h74 : J.val < 74
    · -- the second piece
      have h64 : J.val - 10 < 64 := by omega
      rw [Cert.Spec.rowScore_negative _ _ _ _ ⟨J.val - 10, h64⟩ J (by show J.val = J.val - 10 + 10; omega)]
      refine (concatenate_apply_piece (t := S16384x75x1) (1 : Fin 3) (pieces x0 x1 x2 x3) concatenates_S16384x10x1_S16384x64x1_S16384x1x1_S16384x75x1_d1 (ix3 R J z) 1 (by show (1 : Nat) < 3; omega) S16384x64x1 (val_main_v2 (F := Ideal) x0 x2) rfl rfl
        10 rfl (ix3 R (⟨J.val - 10, h64⟩ : Fin 64) (0 : Fin 1)) ?_ ?_).trans (negative_piece_apply x0 x2 R ⟨J.val - 10, h64⟩)
      · intro b hb
        match b with
        | ⟨0, _⟩ => rfl
        | ⟨1, _⟩ => exact absurd rfl hb
        | ⟨2, _⟩ => show (0 : Nat) = z.val; omega
      · show 10 + (J.val - 10) = J.val; omega
    · -- the third piece
      have e74 : J.val = 74 := by omega
      rw [Cert.Spec.rowScore_buyer _ _ _ _ J e74]
      refine (concatenate_apply_piece (t := S16384x75x1) (1 : Fin 3) (pieces x0 x1 x2 x3) concatenates_S16384x10x1_S16384x64x1_S16384x1x1_S16384x75x1_d1 (ix3 R J z) 2 (by show (2 : Nat) < 3; omega) S16384x1x1 (val_main_v3 (F := Ideal) x0 x3) rfl rfl
        74 rfl (ix3 R (0 : Fin 1) (0 : Fin 1)) ?_ ?_).trans (buyer_piece_apply x0 x3 R)
      · intro b hb
        match b with
        | ⟨0, _⟩ => rfl
        | ⟨1, _⟩ => exact absurd rfl hb
        | ⟨2, _⟩ => show (0 : Nat) = z.val; omega
      · show 74 + 0 = J.val; omega

end Cert.ReferenceIdeal.RefRows

end
-- ==== Proof.lean ====
/-
  The certificate's five claims.

  Both programs take a batch of 16384 rows — a centre vector and a buyer vector of 128 lanes, ten window
  words and sixty-four negative samples of 128 lanes each — and return, per row, 75 numbers: the ten inner
  products of the window words with the centre vector, the sixty-four inner products of the negative
  samples with the centre vector, negated, and the inner product of the centre vector with the buyer vector.
  The kernel computes them block by block (256 rows at a time) by elementwise products and lane sums, and
  negates by subtracting from zero; the reference computes them as three batched contractions, a negation
  and a join. Over the extended reals a lane sum and a contraction over the lanes are the same finite sum
  of the same products in the same factor order, and zero minus a number is its negative: so the two
  results are one function of the arguments (Spec's scores). No law used needs the inputs finite.

  The frames of the two kernel programs are the generated ones; the reference's frame is its generated run
  with the result forgotten; the idealization rewrote nothing, so what it must preserve is trivially true.
-/
import proofs.«180657_j25031069401581_2_alg».proof.Defs
import proofs.«180657_j25031069401581_2_alg».proof.Proof.Gen.Kernel
import proofs.«180657_j25031069401581_2_alg».proof.Proof.Gen.Kernel.Skeleton
import proofs.«180657_j25031069401581_2_alg».proof.Proof.Gen.Kernel.Launch
import proofs.«180657_j25031069401581_2_alg».proof.Proof.Gen.Kernel.Points
import proofs.«180657_j25031069401581_2_alg».proof.Proof.Gen.Kernel.Frame
import proofs.«180657_j25031069401581_2_alg».proof.Proof.Gen.KernelIdeal
import proofs.«180657_j25031069401581_2_alg».proof.Proof.Gen.KernelIdeal.Skeleton
import proofs.«180657_j25031069401581_2_alg».proof.Proof.Gen.KernelIdeal.Launch
import proofs.«180657_j25031069401581_2_alg».proof.Proof.Gen.KernelIdeal.Points
import proofs.«180657_j25031069401581_2_alg».proof.Proof.Gen.KernelIdeal.Frame
import proofs.«180657_j25031069401581_2_alg».proof.Proof.Gen.ReferenceIdeal
import proofs.«180657_j25031069401581_2_alg».proof.Proof.Gen.ReferenceIdeal.Run
import proofs.«180657_j25031069401581_2_alg».proof.Proof.Gen.ReferenceIdeal.Read
import proofs.«180657_j25031069401581_2_alg».proof.Proof.Gen.Pre_finite_inputs
import proofs.«180657_j25031069401581_2_alg».proof.Proof.Spec
import proofs.«180657_j25031069401581_2_alg».proof.Proof.Whole
import proofs.«180657_j25031069401581_2_alg».proof.Proof.RefRows
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with the table of output rows of those arguments. -/
theorem algebraic : Cert.algebraic_KernelIdeal_ReferenceIdeal := by
  intro m ρ m' ρ' _ hagree
  refine ⟨fun c => Cert.Spec.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefRows.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
